-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x32x128 : Shape := ⟨3, ![64, 32, 128]⟩
abbrev S64x1024x128 : Shape := ⟨3, ![64, 1024, 128]⟩
abbrev S_ : Shape := ⟨0, ![]⟩

class Facts : Prop where
  bcast_S_S64x32x128 : S_.BroadcastsInDim S64x32x128 (![] : Fin 0 → Fin S64x32x128.rank)
  reducesTo_S64x32x128_S_d0_1_2 : S64x32x128.ReducesTo [0, 1, 2] S_
  h_S_ : 0 < S_.numel
  bcast_S_S64x1024x128 : S_.BroadcastsInDim S64x1024x128 (![] : Fin 0 → Fin S64x1024x128.rank)
  reducesTo_S64x1024x128_S_d0_1_2 : S64x1024x128.ReducesTo [0, 1, 2] S_

variable [Facts]

def fn {F : FTy → Type} [FloatOps F] (main_arg0 : FVec F S64x32x128 .f32) (main_arg1 : FVec F S64x1024x128 .f32) : IVec S_ 1 :=
  let main_v0 : FVec F S64x32x128 .f32 := Host.absf main_arg0
  let main_cst : FVec F S_ .f32 := constant S_ .f32 0x7F800000#32
  let main_v1 : FVec F S64x32x128 .f32 := broadcastInDim S64x32x128 ![] bcast_S_S64x32x128 main_cst
  let main_v2 : IVec S64x32x128 1 := cmpf .olt main_v0 main_v1
  let main_c : IVec S_ 1 := constantI S_ 1 1#1
  let main_v3 : IVec S_ 1 := (fun x v => Host.reduce IntOp.andi x v reducesTo_S64x32x128_S_d0_1_2 h_S_) main_v2 main_c
  let main_v4 : FVec F S64x1024x128 .f32 := Host.absf main_arg1
  let main_cst_0 : FVec F S_ .f32 := constant S_ .f32 0x7F800000#32
  let main_v5 : FVec F S64x1024x128 .f32 := broadcastInDim S64x1024x128 ![] bcast_S_S64x1024x128 main_cst_0
  let main_v6 : IVec S64x1024x128 1 := cmpf .olt main_v4 main_v5
  let main_c_1 : IVec S_ 1 := constantI S_ 1 1#1
  let main_v7 : IVec S_ 1 := (fun x v => Host.reduce IntOp.andi x v reducesTo_S64x1024x128_S_d0_1_2 h_S_) main_v6 main_c_1
  let main_v8 : IVec S_ 1 := andi main_v3 main_v7
  main_v8
-- ==== Kernel.lean ====
abbrev S64x32x128 : Shape := ⟨3, ![64, 32, 128]⟩
abbrev S64x1024x128 : Shape := ⟨3, ![64, 1024, 128]⟩
abbrev S64x64 : Shape := ⟨2, ![64, 64]⟩
abbrev S32x32x128 : Shape := ⟨3, ![32, 32, 128]⟩
abbrev S32x64 : Shape := ⟨2, ![32, 64]⟩
abbrev S32x32x64 : Shape := ⟨3, ![32, 32, 64]⟩
abbrev S1024x128 : Shape := ⟨2, ![1024, 128]⟩
abbrev S2048x128 : Shape := ⟨2, ![2048, 128]⟩
abbrev S128x2048 : Shape := ⟨2, ![128, 2048]⟩
abbrev S1024x2048 : Shape := ⟨2, ![1024, 2048]⟩
abbrev S32x32x64x32 : Shape := ⟨4, ![32, 32, 64, 32]⟩

abbrev nBuf : Space → Nat
  | .hbm => 3
  | .vmem => 6
  | .smem => 0
  | _ => 0

abbrev bufTy : (tb : Table) → Fin (tcTables nBuf tb) → BufTy
  | .hbm, ⟨0, _⟩ => ⟨S64x32x128, .f32⟩
  | .hbm, ⟨1, _⟩ => ⟨S64x1024x128, .f32⟩
  | .hbm, ⟨2, _⟩ => ⟨S64x64, .f32⟩
  | .local _ .vmem, ⟨0, _⟩ => ⟨S32x32x128, .f32⟩
  | .local _ .vmem, ⟨1, _⟩ => ⟨S64x32x128, .f32⟩
  | .local _ .vmem, ⟨2, _⟩ => ⟨S64x32x128, .f32⟩
  | .local _ .vmem, ⟨3, _⟩ => ⟨S32x64, .f32⟩
  | .local _ .vmem, ⟨4, _⟩ => ⟨S32x64, .f32⟩
  | .local _ .vmem, ⟨5, _⟩ => ⟨S32x32x64, .f32⟩
  | _, _ => ⟨S64x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v18 : BitVec 1 := Scalar.cmpi .eq arg1 c31_i32
  let v19 : BitVec 32 := Scalar.extui v18
  let c0_i32_13 : BitVec 32 := 0#32
  let v20 : BitVec 1 := Scalar.cmpi .ne v19 c0_i32_13
  v20

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S32x32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S64x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S32x32x64_S32x32x64_0_0_0 : ∀ a, (![0, 0, 0] : Fin 3 → Nat) a + S32x32x64.size a ≤ S32x32x64.size a
  h_S32x32x64 : 0 < S32x32x64.numel
  shapeCasts_S32x32x64_S32x32x64 : S32x32x64.ShapeCasts S32x32x64
  inb_S32x32x128_S32x32x128_0_0_0 : ∀ a, (![0, 0, 0] : Fin 3 → Nat) a + S32x32x128.size a ≤ S32x32x128.size a
  h_S32x32x128 : 0 < S32x32x128.numel
  shapeCasts_S32x32x128_S1024x128 : S32x32x128.ShapeCasts S1024x128
  bitsLt_bf16_f32 : FTy.bits .bf16 < FTy.bits .f32
  inb_S64x32x128_S64x32x128_0_0_0 : ∀ a, (![0, 0, 0] : Fin 3 → Nat) a + S64x32x128.size a ≤ S64x32x128.size a
  h_S64x32x128 : 0 < S64x32x128.numel
  shapeCasts_S64x32x128_S2048x128 : S64x32x128.ShapeCasts S2048x128
  transposes_S2048x128_p1_0_S128x2048 : S2048x128.Transposes [1, 0] S128x2048
  shapeCasts_S1024x2048_S32x32x64x32 : S1024x2048.ShapeCasts S32x32x64x32
  reduces_S32x32x64x32_S32x32x64 : S32x32x64x32.Reduces [3] S32x32x64
  reduces_S32x32x64_S32x64 : S32x32x64.Reduces [1] S32x64
  inb_S32x64_S32x64_0_0 : ∀ a, (![0, 0] : Fin 2 → Nat) a + S32x64.size a ≤ S32x64.size a
  h_S32x64 : 0 < S32x64.numel
  dot_S1024x128_S128x2048_S1024x2048_1_0_0_1_n_n_wf : DotDims.WF S1024x128 S128x2048 S1024x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x32x128.size a ≤ S64x32x128.size a
  hwx0_0 : ∀ i : grid0.Coords, EltTy.bits .f32 = 32 ∨ (Rect.block (s := S64x32x128) S32x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x32x128.size a ≤ S64x1024x128.size a
  hwx0_1 : ∀ i : grid0.Coords, EltTy.bits .f32 = 32 ∨ (Rect.block (s := S64x1024x128) S64x32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S64x64.size a
  hwx0_2 : ∀ i : grid0.Coords, EltTy.bits .f32 = 32 ∨ (Rect.block (s := S64x64) S32x64.size (cc0_transform_2 i) (hinb0_2 i)).WholeWords (EltTy.packing .f32)

variable [Facts₀]

def dot_S1024x128_S128x2048_S1024x2048_1_0_0_1_n_n : DotDims S1024x128 S128x2048 S1024x2048 where
  lhsContracting := [1]
  rhsContracting := [0]
  lhsNonContracting := [0]
  rhsNonContracting := [1]
  lhsBatch := []
  rhsBatch := []
  wf := dot_S1024x128_S128x2048_S1024x2048_1_0_0_1_n_n_wf

abbrev win0_0 : Pipeline.Window sig grid0 :=
  Pipeline.Window.ofSpec (Memref.whole main_arg0) S32x32x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x32x128 : Shape := ⟨3, ![64, 32, 128]⟩
abbrev S64x1024x128 : Shape := ⟨3, ![64, 1024, 128]⟩
abbrev S64x1024x64x32 : Shape := ⟨4, ![64, 1024, 64, 32]⟩
abbrev S64x64x32x1024 : Shape := ⟨4, ![64, 64, 32, 1024]⟩
abbrev S_ : Shape := ⟨0, ![]⟩
abbrev S64x64x32 : Shape := ⟨3, ![64, 64, 32]⟩
abbrev S64x64 : Shape := ⟨2, ![64, 64]⟩

abbrev nBuf : Space → Nat
  | .hbm => 8
  | .vmem => 0
  | .smem => 0
  | _ => 0

abbrev bufTy : (tb : Table) → Fin (tcTables nBuf tb) → BufTy
  | .hbm, ⟨0, _⟩ => ⟨S64x32x128, .f32⟩
  | .hbm, ⟨1, _⟩ => ⟨S64x1024x128, .f32⟩
  | .hbm, ⟨2, _⟩ => ⟨S64x1024x64x32, .f32⟩
  | .hbm, ⟨3, _⟩ => ⟨S64x64x32x1024, .f32⟩
  | .hbm, ⟨4, _⟩ => ⟨S_, .f32⟩
  | .hbm, ⟨5, _⟩ => ⟨S64x64x32, .f32⟩
  | .hbm, ⟨6, _⟩ => ⟨S_, .f32⟩
  | .hbm, ⟨7, _⟩ => ⟨S64x64, .f32⟩
  | _, _ => ⟨S64x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  transposes_S64x1024x64x32_S64x64x32x1024_2_0_3_1 : S64x1024x64x32.Transposes [2, 0, 3, 1] S64x64x32x1024
  reducesTo_S64x64x32x1024_S64x64x32_d3 : S64x64x32x1024.ReducesTo [3] S64x64x32
  h_S_ : 0 < S_.numel
  reducesTo_S64x64x32_S64x64_d2 : S64x64x32.ReducesTo [2] S64x64
  dot_S64x1024x128_S64x32x128_S64x1024x64x32_2_2_01_01_n_n_wf : DotDims.WF S64x1024x128 S64x32x128 S64x1024x64x32 [2] [2] [0, 1] [0, 1] [] []

variable [Facts₀]

def dot_S64x1024x128_S64x32x128_S64x1024x64x32_2_2_01_01_n_n : DotDims S64x1024x128 S64x32x128 S64x1024x64x32 where
  lhsContracting := [2]
  rhsContracting := [2]
  lhsNonContracting := [0, 1]
  rhsNonContracting := [0, 1]
  lhsBatch := []
  rhsBatch := []
  wf := dot_S64x1024x128_S64x32x128_S64x1024x64x32_2_2_01_01_n_n_wf

class Facts : Prop extends Facts₀ where

variable [Facts]
-- ==== Proof.Pieces.lean ====
/-
  What one grid step leaves behind, as pure functions of what it loaded.

  A step of the kernel loads its block of query tokens, its tile of document tokens and the running-maximum
  buffer, and stores back into the running-maximum buffer one value: the elementwise maximum of the old buffer
  and this tile's best similarities (`k0_pay2`). At the first tile of a query block the old buffer is first
  overwritten by minus infinity (`k0_pay1`), so the step leaves the maximum of minus infinity and the tile's
  best similarities. At the last tile the score block is the sum over query tokens of the buffer just stored
  (`k0_pay3`).
-/
import proofs.«126869_j12077448036546_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Step

open Cert.KernelIdeal Cert.KernelIdeal.Gen

variable {F : FTy → Type} [FloatOps F]

theorem zeros3 : (![0, 0, 0] : Fin 3 → Nat) = fun _ => 0 := funext fun a => by fin_cases a <;> rfl
theorem zeros2 : (![0, 0] : Fin 2 → Nat) = fun _ => 0 := funext fun a => by fin_cases a <;> rfl

/-- A middle tile: the running maximum becomes the maximum of what it was and this tile's best similarities. -/
theorem carried_mid (c : Dev nD) (i : grid0.Coords) (arg2 : Memref sig .tc .vmem S32x32x128 .f32) (harg2 : arg2.IsWhole) (arg3 : Memref sig .tc .vmem S64x32x128 .f32) (harg3 : arg3.IsWhole) (arg4 : Memref sig .tc .vmem S32x64 .f32) (harg4 : arg4.IsWhole) (arg5 : Memref sig .tc .vmem S32x32x64 .f32) (harg5 : arg5.IsWhole) (hc0 : ¬cond0_0 i) (hc1 : ¬cond0_1 i)
    (x0 : Vec F S32x32x128 .f32) (x1 : Vec F S64x32x128 .f32) (xs0 : Vec F S32x32x64 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero zeros3]
  simp only [View.readAt_eq_ld, harg2.read_unread, harg3.read_unread, harg5.read_unread,
    View.ld_unit_zero (S := S32x32x128) zeros3, View.ld_unit_zero (S := S64x32x128) zeros3,
    View.ld_unit_zero (S := S32x32x64) zeros3]

/-- The last tile leaves the same in the running maximum … -/
theorem carried_last (c : Dev nD) (i : grid0.Coords) (arg2 : Memref sig .tc .vmem S32x32x128 .f32) (harg2 : arg2.IsWhole) (arg3 : Memref sig .tc .vmem S64x32x128 .f32) (harg3 : arg3.IsWhole) (arg4 : Memref sig .tc .vmem S32x64 .f32) (harg4 : arg4.IsWhole) (arg5 : Memref sig .tc .vmem S32x32x64 .f32) (harg5 : arg5.IsWhole) (hc0 : ¬cond0_0 i) (hc1 : cond0_1 i)
    (x0 : Vec F S32x32x128 .f32) (x1 : Vec F S64x32x128 .f32) (xs0 : Vec F S32x32x64 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero zeros3]
  simp only [View.readAt_eq_ld, harg2.read_unread, harg3.read_unread, harg5.read_unread,
    View.ld_unit_zero (S := S32x32x128) zeros3, View.ld_unit_zero (S := S64x32x128) zeros3,
    View.ld_unit_zero (S := S32x32x64) zeros3]

/-- … and writes the score block: the sum over query tokens of that running maximum. -/
theorem score_last (c : Dev nD) (i : grid0.Coords) (arg2 : Memref sig .tc .vmem S32x32x128 .f32) (harg2 : arg2.IsWhole) (arg3 : Memref sig .tc .vmem S64x32x128 .f32) (harg3 : arg3.IsWhole) (arg4 : Memref sig .tc .vmem S32x64 .f32) (harg4 : arg4.IsWhole) (arg5 : Memref sig .tc .vmem S32x32x64 .f32) (harg5 : arg5.IsWhole) (hc0 : ¬cond0_0 i) (hc1 : cond0_1 i)
    (x0 : Vec F S32x32x128 .f32) (x1 : Vec F S64x32x128 .f32) (xs0 : Vec F S32x32x64 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero zeros2, View.readCov_unit_zero (S := S32x32x64) _ zeros3]
  simp only [View.readAt_eq_ld, harg2.read_unread, harg3.read_unread, harg5.read_unread,
    View.ld_unit_zero (S := S32x32x128) zeros3, View.ld_unit_zero (S := S64x32x128) zeros3,
    View.ld_unit_zero (S := S32x32x64) zeros3]

/-- The first tile of a query block: the buffer is reset to minus infinity before the maximum is taken. -/
theorem carried_first (c : Dev nD) (i : grid0.Coords) (arg2 : Memref sig .tc .vmem S32x32x128 .f32) (harg2 : arg2.IsWhole) (arg3 : Memref sig .tc .vmem S64x32x128 .f32) (harg3 : arg3.IsWhole) (arg4 : Memref sig .tc .vmem S32x64 .f32) (harg4 : arg4.IsWhole) (arg5 : Memref sig .tc .vmem S32x32x64 .f32) (harg5 : arg5.IsWhole) (hc0 : cond0_0 i) (hc1 : ¬cond0_1 i)
    (x0 : Vec F S32x32x128 .f32) (x1 : Vec F S64x32x128 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S32x32x64) zeros3, View.readCov_unit_zero (S := S32x32x64) _ zeros3]
  simp only [View.readAt_eq_ld, harg2.read_unread, harg3.read_unread,
    View.ld_unit_zero (S := S32x32x128) zeros3, View.ld_unit_zero (S := S64x32x128) zeros3]

end Cert.KernelIdeal.Step

end
-- ==== Proof.Payload.lean ====
/-
  One grid step's arithmetic, read at an index, on the extended reals.

  The step's stored value (`k0_pay2`) at (b, n, c) — query b of the block, its token n, document c — is the
  maximum of the old running maximum there and the supremum, over the 32 document tokens s of the tile, of the
  inner product over the 128 features of query token (b, n) and document token (c, s). The kernel gets there by
  flattening the queries to 1024 rows and the tile to 2048 rows, one matrix product of the first with the transpose
  of the second into a zero accumulator, un-flattening the 1024 × 2048 result to (b, n, c, s), and a maximum over s
  from minus infinity. A change of float format is the identity on extended reals, so the two roundings to bf16
  in front of the product do nothing here.

  The score block (`k0_pay3`) at (b, c) is the sum over the query's 32 tokens of the running maximum.
-/
import proofs.«126869_j12077448036546_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Step

open Cert.KernelIdeal Cert.KernelIdeal.Gen

/-- The pattern of f32's minus infinity denotes the bottom of the extended reals. -/
theorem neg_inf : Ideal.ofBits .f32 0xFF800000#32 = (⊥ : EReal) := by simp [Ideal.ofBits, Ideal.ieee]

/-- Row 32 b + n of the flattened query block is token n of query b. -/
theorem flatten_queries (x0 : FVec Ideal S32x32x128 .f32) (b : Fin 32) (n : Fin 32) (d : Fin 128) (r : Fin 1024)
    (hr : r.val = 32 * b.val + n.val) :
    shapeCast S1024x128 x0 shapeCasts_S32x32x128_S1024x128 (ix2 r d) = x0 (ix3 b n d) :=
  shapeCast_apply x0 _ (ix2 r d) (ix3 b n d) (by
    rw [Shape.rowMajor_val_three, Shape.rowMajor_val_two]
    show (b.val * 32 + n.val) * 128 + d.val = r.val * 128 + d.val
    rw [hr]; ring)

/-- Row 32 c + s of the flattened document tile is token s (of the tile) of document c. -/
theorem flatten_docs (x1 : FVec Ideal S64x32x128 .f32) (c : Fin 64) (s : Fin 32) (d : Fin 128) (q : Fin 2048)
    (hq : q.val = 32 * c.val + s.val) :
    shapeCast S2048x128 x1 shapeCasts_S64x32x128_S2048x128 (ix2 q d) = x1 (ix3 c s d) :=
  shapeCast_apply x1 _ (ix2 q d) (ix3 c s d) (by
    rw [Shape.rowMajor_val_three, Shape.rowMajor_val_two]
    show (c.val * 32 + s.val) * 128 + d.val = q.val * 128 + d.val
    rw [hq]; ring)

/-- The transposed tile at (d, q) is the tile at (q, d). -/
theorem transpose_docs (v : FVec Ideal S2048x128 .bf16) (d : Fin 128) (q : Fin 2048) :
    transpose S128x2048 [1, 0] v transposes_S2048x128_p1_0_S128x2048 (ix2 d q) = v (ix2 q d) :=
  transpose_apply [1, 0] v _ (ix2 d q) (ix2 q d) (fun a => match a with | ⟨0, _⟩ => rfl | ⟨1, _⟩ => rfl)

/-- Entry (32 b + n, 32 c + s) of the 1024 × 2048 product is entry (b, n, c, s) of its un-flattening. -/
theorem unflatten_product (v : FVec Ideal S1024x2048 .f32) (b : Fin 32) (n : Fin 32) (c : Fin 64) (s : Fin 32)
    (r : Fin 1024) (q : Fin 2048) (hr : r.val = 32 * b.val + n.val) (hq : q.val = 32 * c.val + s.val) :
    shapeCast S32x32x64x32 v shapeCasts_S1024x2048_S32x32x64x32 (ix4 b n c s) = v (ix2 r q) :=
  shapeCast_apply v _ (ix4 b n c s) (ix2 r q) (by
    rw [Shape.rowMajor_val_two, Shape.rowMajor_val_four]
    show r.val * 2048 + q.val = ((b.val * 32 + n.val) * 64 + c.val) * 32 + s.val
    rw [hr, hq]; ring)

theorem lhs_row (i : S1024x2048.Idx) (k : dot_S1024x128_S128x2048_S1024x2048_1_0_0_1_n_n.contr.Idx) :
    (dot_S1024x128_S128x2048_S1024x2048_1_0_0_1_n_n.lhsIdx i k 0).val = (i 0).val := by
  unfold DotDims.lhsIdx
  rw [dif_neg (show ¬(0 : Fin S1024x128.rank) ∈ dot_S1024x128_S128x2048_S1024x2048_1_0_0_1_n_n.lhsBatch by decide),
    dif_pos (show (0 : Fin S1024x128.rank) ∈ dot_S1024x128_S128x2048_S1024x2048_1_0_0_1_n_n.lhsNonContracting by decide)]
  rfl
theorem lhs_col (i : S1024x2048.Idx) (k : dot_S1024x128_S128x2048_S1024x2048_1_0_0_1_n_n.contr.Idx) :
    (dot_S1024x128_S128x2048_S1024x2048_1_0_0_1_n_n.lhsIdx i k 1).val = (k ⟨0, by decide⟩).val :=
  dot_S1024x128_S128x2048_S1024x2048_1_0_0_1_n_n.lhsIdx_val_of_single rfl i k
theorem rhs_row (i : S1024x2048.Idx) (k : dot_S1024x128_S128x2048_S1024x2048_1_0_0_1_n_n.contr.Idx) :
    (dot_S1024x128_S128x2048_S1024x2048_1_0_0_1_n_n.rhsIdx i k 0).val = (k ⟨0, by decide⟩).val :=
  dot_S1024x128_S128x2048_S1024x2048_1_0_0_1_n_n.rhsIdx_val_of_single rfl i k
theorem rhs_col (i : S1024x2048.Idx) (k : dot_S1024x128_S128x2048_S1024x2048_1_0_0_1_n_n.contr.Idx) :
    (dot_S1024x128_S128x2048_S1024x2048_1_0_0_1_n_n.rhsIdx i k 1).val = (i 1).val := by
  unfold DotDims.rhsIdx
  rw [dif_neg (show ¬(1 : Fin S128x2048.rank) ∈ dot_S1024x128_S128x2048_S1024x2048_1_0_0_1_n_n.rhsBatch by decide),
    dif_pos (show (1 : Fin S128x2048.rank) ∈ dot_S1024x128_S128x2048_S1024x2048_1_0_0_1_n_n.rhsNonContracting by decide)]
  rfl

/-- The matrix product into a zero accumulator, at (r, q): the sum over the 128 features of row r of the left
    factor times column q of the right one. -/
theorem product_apply (lhs : FVec Ideal S1024x128 .bf16) (rhs : FVec Ideal S128x2048 .bf16) (r : Fin 1024) (q : Fin 2048) :
    matmul dot_S1024x128_S128x2048_S1024x2048_1_0_0_1_n_n none lhs rhs (constant S1024x2048 .f32 0x00000000#32) (ix2 r q)
      = ∑ d : Fin 128, lhs (ix2 r d) * rhs (ix2 d q) := by
  simp only [matmul]
  rw [Ideal.matmul_constant_zero_apply, ← Equiv.sum_comp (contrEquiv1 dot_S1024x128_S128x2048_S1024x2048_1_0_0_1_n_n 128 rfl rfl).symm]
  refine Finset.sum_congr rfl fun d _ => ?_
  have hd := contrEquiv1_symm_val dot_S1024x128_S128x2048_S1024x2048_1_0_0_1_n_n 128 rfl rfl d
  have el : dot_S1024x128_S128x2048_S1024x2048_1_0_0_1_n_n.lhsIdx (ix2 r q)
      ((contrEquiv1 dot_S1024x128_S128x2048_S1024x2048_1_0_0_1_n_n 128 rfl rfl).symm d) = ix2 r d := funext fun a => Fin.ext (by
    match a with
    | ⟨0, _⟩ => exact lhs_row _ _
    | ⟨1, _⟩ => exact (lhs_col _ _).trans hd)
  have er : dot_S1024x128_S128x2048_S1024x2048_1_0_0_1_n_n.rhsIdx (ix2 r q)
      ((contrEquiv1 dot_S1024x128_S128x2048_S1024x2048_1_0_0_1_n_n 128 rfl rfl).symm d) = ix2 d q := funext fun a => Fin.ext (by
    match a with
    | ⟨0, _⟩ => exact (rhs_row _ _).trans hd
    | ⟨1, _⟩ => exact rhs_col _ _)
  rw [el, er]

/-- The maximum over the tile's tokens, from minus infinity, is the supremum over them. -/
theorem tile_max (v : FVec Ideal S32x32x64x32 .f32) (hφ : FKind.Formats .f32)
    (hacc : (0xFF800000#32 : BitVec 32) = FKind.maximumf.neutral .f32 hφ) (b : Fin 32) (n : Fin 32) (c : Fin 64) :
    multiReduction .maximumf [3] S32x32x64 v 0xFF800000#32 reduces_S32x32x64x32_S32x32x64 hφ hacc (ix3 b n c)
      = (Finset.univ : Finset (Fin 32)).sup fun s => v (ix4 b n c s) := by
  refine (Ideal.multiReduction_maximumf_single v _ reduces_S32x32x64x32_S32x32x64 hφ hacc (ix3 b n c)).trans ?_
  have e : ∀ s : Fin 32, reduces_S32x32x64x32_S32x32x64.lift (ix3 b n c) s = ix4 b n c s := fun s =>
    funext fun a => Fin.ext (by match a with | ⟨0, _⟩ => rfl | ⟨1, _⟩ => rfl | ⟨2, _⟩ => rfl | ⟨3, _⟩ => rfl)
  have e' : (v ∘ reduces_S32x32x64x32_S32x32x64.lift (ix3 b n c)) = fun s : Fin 32 => v (ix4 b n c s) :=
    funext fun s => congrArg v (e s)
  rw [e']
  show (Finset.univ : Finset (Fin 32)).fold max (Ideal.ofBits .f32 0xFF800000#32) (fun s => v (ix4 b n c s)) = _
  rw [neg_inf]
  rfl

/-- THE STEP'S STORED VALUE at (b, n, c). -/
theorem running_max_apply (x0 : FVec Ideal S32x32x128 .f32) (x1 : FVec Ideal S64x32x128 .f32) (acc : FVec Ideal S32x32x64 .f32)
    (b : Fin 32) (n : Fin 32) (c : Fin 64) :
    k0_pay2 (F := Ideal) x0 x1 acc (ix3 b n c)
      = max (acc (ix3 b n c))
          ((Finset.univ : Finset (Fin 32)).sup fun s => ∑ d : Fin 128, x0 (ix3 b n d) * x1 (ix3 c s d)) := by
  unfold k0_pay2
  refine (congrFun (shapeCast_self _ _) (ix3 b n c)).trans ?_
  refine (maximumf_apply _ _ _).trans ?_
  refine congrArg (max (acc (ix3 b n c))) ?_
  refine (tile_max _ _ _ b n c).trans ?_
  refine Finset.sup_congr rfl fun s _ => ?_
  have hb : b.val < 32 := b.isLt
  have hn : n.val < 32 := n.isLt
  have hc : c.val < 64 := c.isLt
  have hs : s.val < 32 := s.isLt
  refine (unflatten_product _ b n c s ⟨32 * b.val + n.val, by omega⟩ ⟨32 * c.val + s.val, by omega⟩ rfl rfl).trans ?_
  refine (product_apply _ _ _ _).trans ?_
  refine Finset.sum_congr rfl fun d _ => ?_
  exact congrArg₂ (· * ·) (flatten_queries x0 b n d _ rfl) ((transpose_docs _ d _).trans (flatten_docs x1 c s d _ rfl))

/-- The reset value: minus infinity everywhere. -/
theorem reset_apply (j : S32x32x64.Idx) : k0_pay1 (F := Ideal) j = (⊥ : EReal) := by
  unfold k0_pay1
  refine (congrFun (shapeCast_self _ _) j).trans ?_
  exact neg_inf

/-- THE SCORE BLOCK at (b, c): the sum over the query's tokens of the running maximum. -/
theorem token_sum_apply (v : FVec Ideal S32x32x64 .f32) (b : Fin 32) (c : Fin 64) :
    k0_pay3 (F := Ideal) v (ix2 b c) = ∑ n : Fin 32, v (ix3 b n c) := by
  unfold k0_pay3
  refine (Ideal.multiReduction_add_single v _ reduces_S32x32x64_S32x64 _ _ (ix2 b c)).trans ?_
  show (∑ n : Fin 32, v (reduces_S32x32x64_S32x64.lift (ix2 b c) n)) = _
  refine Finset.sum_congr rfl fun n _ => congrArg v (funext fun a => Fin.ext (by
    match a with | ⟨0, _⟩ => rfl | ⟨1, _⟩ => rfl | ⟨2, _⟩ => rfl))

end Cert.KernelIdeal.Step

end
-- ==== Proof.Spec.lean ====
/-
  The MaxSim score as one function of the two argument arrays, and the one fact about it that the tiled
  computation needs.

  With queries `qs[b, n, d]` (64 queries of 32 tokens, 128 features) and documents `ps[c, s, d]` (64 documents
  of 1024 tokens), the similarity of query token (b, n) and document token (c, s) is the inner product over the
  feature axis; a query token's best similarity against a document is the supremum over the document's tokens;
  the score of (b, c) is the sum of the best similarities over the query's tokens. All of this is read on the
  extended reals, where the supremum of the empty family is minus infinity.

  The kernel walks the 1024 document tokens in 32 tiles of 32 and keeps a running maximum. The supremum over all
  tokens is the supremum over the tiles of each tile's supremum: both are the least upper bound of the same 1024
  numbers (`bestUpTo_last`). No finiteness is used anywhere: only that the supremum is a least upper bound.
-/
import Idealize.ShloMosaic.PureOps.Ideal
import Idealize.ShloMosaic.Lib.ValueIdx

noncomputable section

open scoped BigOperators

namespace Cert.MaxSim

open Idealize.ShloMosaic Idealize.ShloMosaic.ValueIdx

/-- The query array: 64 queries, 32 tokens each, 128 features. -/
abbrev Queries : Type := (⟨3, ![64, 32, 128]⟩ : Shape).Idx → EReal
/-- The document array: 64 documents, 1024 tokens each, 128 features. -/
abbrev Docs : Type := (⟨3, ![64, 1024, 128]⟩ : Shape).Idx → EReal

/-- The similarity of query token (b, n) and document token (c, s): their inner product. -/
def sim (qs : Queries) (ps : Docs) (b : Fin 64) (n : Fin 32) (c : Fin 64) (s : Fin 1024) : EReal :=
  ∑ d : Fin 128, qs (ix3 b n d) * ps (ix3 c s d)

/-- The same with the document token named by a natural number; minus infinity past the document's end (never read). -/
def simAt (qs : Queries) (ps : Docs) (b : Fin 64) (n : Fin 32) (c : Fin 64) (s : ℕ) : EReal :=
  if h : s < 1024 then sim qs ps b n c ⟨s, h⟩ else ⊥

theorem simAt_of_lt (qs : Queries) (ps : Docs) (b : Fin 64) (n : Fin 32) (c : Fin 64) (s : ℕ) (h : s < 1024) :
    simAt qs ps b n c s = sim qs ps b n c ⟨s, h⟩ := dif_pos h

/-- The best similarity of query token (b, n) against document c. -/
def best (qs : Queries) (ps : Docs) (b : Fin 64) (n : Fin 32) (c : Fin 64) : EReal :=
  (Finset.univ : Finset (Fin 1024)).sup fun s => sim qs ps b n c s

/-- THE SCORE: for query b and document c, the sum over the query's tokens of the token's best similarity. -/
def score (qs : Queries) (ps : Docs) : (⟨2, ![64, 64]⟩ : Shape).Idx → EReal :=
  fun i => ∑ n : Fin 32, best qs ps (i 0) n (i 1)

/-- The best similarity within tile k of the document's tokens (tokens 32k … 32k + 31). -/
def tileBest (qs : Queries) (ps : Docs) (b : Fin 64) (n : Fin 32) (c : Fin 64) (k : ℕ) : EReal :=
  (Finset.univ : Finset (Fin 32)).sup fun s => simAt qs ps b n c (32 * k + s.val)

/-- The best similarity within tiles 0 … k: what the running maximum holds after tile k. -/
def bestUpTo (qs : Queries) (ps : Docs) (b : Fin 64) (n : Fin 32) (c : Fin 64) (k : ℕ) : EReal :=
  (Finset.range (k + 1)).sup fun j => tileBest qs ps b n c j

/-- After the first tile the running maximum is that tile's best: the maximum with minus infinity changes nothing. -/
theorem bestUpTo_zero (qs : Queries) (ps : Docs) (b : Fin 64) (n : Fin 32) (c : Fin 64) :
    bestUpTo qs ps b n c 0 = max ⊥ (tileBest qs ps b n c 0) := by
  unfold bestUpTo
  rw [Finset.range_one, Finset.sup_singleton, max_eq_right bot_le]

/-- Each further tile joins its best to the running maximum. -/
theorem bestUpTo_succ (qs : Queries) (ps : Docs) (b : Fin 64) (n : Fin 32) (c : Fin 64) (k : ℕ) :
    bestUpTo qs ps b n c (k + 1) = max (bestUpTo qs ps b n c k) (tileBest qs ps b n c (k + 1)) := by
  unfold bestUpTo
  rw [Finset.range_add_one (n := k + 1), Finset.sup_insert, max_comm]

/-- After the last tile the running maximum is the best similarity over the whole document: the 32 tiles of 32
    tokens are the 1024 tokens, and a supremum of suprema is the supremum of the union. -/
theorem bestUpTo_last (qs : Queries) (ps : Docs) (b : Fin 64) (n : Fin 32) (c : Fin 64) :
    bestUpTo qs ps b n c 31 = best qs ps b n c := by
  unfold bestUpTo best tileBest
  apply le_antisymm
  · refine Finset.sup_le fun j hj => Finset.sup_le fun s _ => ?_
    have hj' : j < 32 := Finset.mem_range.mp hj
    have hs : s.val < 32 := s.isLt
    have hlt : 32 * j + s.val < 1024 := by omega
    rw [simAt_of_lt qs ps b n c _ hlt]
    exact Finset.le_sup (f := fun s : Fin 1024 => sim qs ps b n c s) (Finset.mem_univ _)
  · refine Finset.sup_le fun s _ => ?_
    have hs : s.val < 1024 := s.isLt
    have hq : s.val / 32 < 32 := by omega
    have hr : s.val % 32 < 32 := Nat.mod_lt _ (by decide)
    have e : sim qs ps b n c s = simAt qs ps b n c (32 * (s.val / 32) + (⟨s.val % 32, hr⟩ : Fin 32).val) := by
      have hlt : 32 * (s.val / 32) + s.val % 32 < 1024 := by omega
      show _ = simAt qs ps b n c (32 * (s.val / 32) + s.val % 32)
      rw [simAt_of_lt qs ps b n c _ hlt]
      exact congrArg (sim qs ps b n c) (Fin.ext (by show s.val = 32 * (s.val / 32) + s.val % 32; omega))
    rw [e]
    refine le_trans ?_ (Finset.le_sup (f := fun j => (Finset.univ : Finset (Fin 32)).sup fun s' => simAt qs ps b n c (32 * j + s'.val))
      (Finset.mem_range.mpr (show s.val / 32 < 31 + 1 by omega)))
    exact Finset.le_sup (f := fun s' : Fin 32 => simAt qs ps b n c (32 * (s.val / 32) + s'.val)) (Finset.mem_univ _)

/-- A fold of `max` from minus infinity is the supremum. -/
theorem fold_max_bot {ι : Type} (s : Finset ι) (f : ι → EReal) : s.fold max ⊥ f = s.sup f := rfl

end Cert.MaxSim

end
-- ==== Proof.Blocks.lean ====
/-
  What the kernel's windows show it at a grid point, in terms of the two argument arrays.

  The grid has 2 × 32 points; point t works on query block t / 32 (queries 32 (t / 32) … 32 (t / 32) + 31, all their
  tokens and features) and on document-token tile t % 32 (tokens 32 (t % 32) … + 31 of every document). So the
  supremum, over the tile's tokens, of the inner products of one query token with them is the tile's best similarity
  in the sense of the specification.
-/
import proofs.«126869_j12077448036546_2_alg».proof.Proof.Gen.KernelIdeal.Frame.Runs
import proofs.«126869_j12077448036546_2_alg».proof.Proof.Spec
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx

namespace Cert.KernelIdeal.Step

open Cert.KernelIdeal Cert.KernelIdeal.Gen

variable (m : (ℓ : Loc nD τ sig) → Buf (Elt Ideal) ℓ)

/-- The query window's block index at point t: query block t / 32, the whole token and feature axes. -/
theorem query_idx : ∀ t : Fin cfg0.N, win0_0.index t (0 : Fin 3) = t.val / 32 ∧ win0_0.index t (1 : Fin 3) = 0
    ∧ win0_0.index t (2 : Fin 3) = 0 :=
  (by decide +kernel : ∀ t : Fin grid0.N, win0_0.index t (0 : Fin 3) = t.val / 32 ∧ win0_0.index t (1 : Fin 3) = 0
    ∧ win0_0.index t (2 : Fin 3) = 0)

/-- The document window's block index at point t: every document, token tile t % 32, the whole feature axis. -/
theorem doc_idx : ∀ t : Fin cfg0.N, win0_1.index t (0 : Fin 3) = 0 ∧ win0_1.index t (1 : Fin 3) = t.val % 32
    ∧ win0_1.index t (2 : Fin 3) = 0 :=
  (by decide +kernel : ∀ t : Fin grid0.N, win0_1.index t (0 : Fin 3) = 0 ∧ win0_1.index t (1 : Fin 3) = t.val % 32
    ∧ win0_1.index t (2 : Fin 3) = 0)

/-- The score window's block index at point t: query block t / 32, every document. -/
theorem score_idx : ∀ t : Fin cfg0.N, win0_2.index t (0 : Fin 2) = t.val / 32 ∧ win0_2.index t (1 : Fin 2) = 0 :=
  (by decide +kernel : ∀ t : Fin grid0.N, win0_2.index t (0 : Fin 2) = t.val / 32 ∧ win0_2.index t (1 : Fin 2) = 0)

/-- The query block at point t, at (b, n, d), is the query array at (32 (t / 32) + b, n, d). -/
theorem query_block (c : Dev nD) (t : Fin cfg0.N) (b : Fin 32) (n : Fin 32) (d : Fin 128) (B : Fin 64)
    (hB : B.val = 32 * (t.val / 32) + b.val) :
    (iblk m c 0 t : Vec Ideal S32x32x128 .f32) (ix3 b n d) = m ((c : Thread nD τ).loc main_arg0) (ix3 B n d) := by
  obtain ⟨e0, e1, e2⟩ := query_idx t
  unfold iblk
  rw [View.read_apply]
  show V m c main_arg0 _ = m (c.tc.loc main_arg0) _
  unfold V
  congr 1
  funext a
  apply Fin.ext
  match a with
  | ⟨0, _⟩ => show win0_0.index t (0 : Fin 3) * 32 + 1 * b.val = B.val; rw [e0, hB]; omega
  | ⟨1, _⟩ => show win0_0.index t (1 : Fin 3) * 32 + 1 * n.val = n.val; rw [e1]; omega
  | ⟨2, _⟩ => show win0_0.index t (2 : Fin 3) * 128 + 1 * d.val = d.val; rw [e2]; omega

/-- The document tile at point t, at (c, s, d), is the document array at (c, 32 (t % 32) + s, d). -/
theorem doc_block (c : Dev nD) (t : Fin cfg0.N) (cc : Fin 64) (s : Fin 32) (d : Fin 128) (S : Fin 1024)
    (hS : S.val = 32 * (t.val % 32) + s.val) :
    (iblk m c 1 t : Vec Ideal S64x32x128 .f32) (ix3 cc s d) = m ((c : Thread nD τ).loc main_arg1) (ix3 cc S d) := by
  obtain ⟨e0, e1, e2⟩ := doc_idx t
  unfold iblk
  rw [View.read_apply]
  show V m c main_arg1 _ = m (c.tc.loc main_arg1) _
  unfold V
  congr 1
  funext a
  apply Fin.ext
  match a with
  | ⟨0, _⟩ => show win0_1.index t (0 : Fin 3) * 64 + 1 * cc.val = cc.val; rw [e0]; omega
  | ⟨1, _⟩ => show win0_1.index t (1 : Fin 3) * 32 + 1 * s.val = S.val; rw [e1, hS]; omega
  | ⟨2, _⟩ => show win0_1.index t (2 : Fin 3) * 128 + 1 * d.val = d.val; rw [e2]; omega

/-- The tile's best similarity, computed from the two blocks the point sees, is the specification's. -/
theorem tile_value (c : Dev nD) (t : Fin cfg0.N) (b : Fin 32) (n : Fin 32) (cc : Fin 64) (B : Fin 64)
    (hB : B.val = 32 * (t.val / 32) + b.val) (x0 : FVec Ideal S32x32x128 .f32) (x1 : FVec Ideal S64x32x128 .f32)
    (h0 : x0 = iblk m c 0 t) (h1 : x1 = iblk m c 1 t) :
    ((Finset.univ : Finset (Fin 32)).sup fun s => ∑ d : Fin 128, x0 (ix3 b n d) * x1 (ix3 cc s d))
      = Cert.MaxSim.tileBest (m ((c : Thread nD τ).loc main_arg0)) (m ((c : Thread nD τ).loc main_arg1)) B n cc (t.val % 32) := by
  subst h0 h1
  unfold Cert.MaxSim.tileBest
  refine Finset.sup_congr rfl fun s _ => ?_
  have hs : s.val < 32 := s.isLt
  have hk : t.val % 32 < 32 := Nat.mod_lt _ (by decide)
  have hlt : 32 * (t.val % 32) + s.val < 1024 := by omega
  rw [Cert.MaxSim.simAt_of_lt _ _ _ _ _ _ hlt]
  unfold Cert.MaxSim.sim
  refine Finset.sum_congr rfl fun d _ => ?_
  rw [query_block m c t b n d B hB, doc_block m c t cc s d ⟨32 * (t.val % 32) + s.val, hlt⟩ rfl]

end Cert.KernelIdeal.Step

end
-- ==== Proof.Carried.lean ====
/-
  The running maximum after each grid point, and the score block the last tile of a query block writes.

  By induction on the grid point: after point t — query block t / 32, tile t % 32 — the running-maximum buffer
  holds, at (b, n, c), the best similarity of token n of query 32 (t / 32) + b against document c within tiles
  0 … t % 32. The first tile of a query block resets the buffer to minus infinity before taking the maximum, so it
  leaves that tile's best; every later tile joins its best to what the point before left. After the last tile this
  is the best similarity over the whole document, and the score block written there is its sum over the query's
  tokens: the score.
-/
import proofs.«126869_j12077448036546_2_alg».proof.Proof.Gen.KernelIdeal.Frame
import proofs.«126869_j12077448036546_2_alg».proof.Proof.Pieces
import proofs.«126869_j12077448036546_2_alg».proof.Proof.Payload
import proofs.«126869_j12077448036546_2_alg».proof.Proof.Blocks

noncomputable section

open scoped BigOperators
open Idealize.ShloMosaic Idealize.ShloMosaic.TcCoe Idealize.SL.Sem Idealize.ShloMosaic.ValueIdx

namespace Cert.KernelIdeal.Step

open Cert.KernelIdeal Cert.KernelIdeal.Gen

section AnyValues

variable {F : FTy → Type} [FloatOps F]
variable (m : (ℓ : Loc nD τ sig) → Buf (Elt F) ℓ)

/-- At the first tile of a query block the buffer ends at the step's value over the reset buffer. -/
theorem carried_at_first (c : Dev nD) (t : Fin cfg0.N) (h0 : t.val % 32 = 0) :
    (outsAt0 m c t.val t.isLt).2 = k0_pay2 (iblk m c 0 t) (iblk m c 1 t) (k0_pay1 (F := F)) := by
  have h1 : ¬t.val % 32 = 31 := by omega
  rw [outsAt0_A m c t h0 h1]
  dsimp only
  exact carried_first c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (iblk m c 0 t) (iblk m c 1 t)

/-- At every other tile it ends at the step's value over what the point before left. -/
theorem carried_at_next (c : Dev nD) (t : Fin cfg0.N) (h0 : ¬t.val % 32 = 0) :
    (outsAt0 m c t.val t.isLt).2
      = k0_pay2 (iblk m c 0 t) (iblk m c 1 t) (outsAt0 m c (t.val - 1) (Nat.lt_of_le_of_lt (Nat.sub_le _ _) t.isLt)).2 := by
  by_cases h1 : t.val % 32 = 31
  · rw [outsAt0_C m c t h0 h1]
    dsimp only
    exact carried_last c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2
  · rw [outsAt0_B m c t h0 h1]
    dsimp only
    exact carried_mid c (grid0.coords t) (ms0_0 t) (hs0_0 t) (ms0_1 t) (hs0_1 t) (ms0_2 t) (hs0_2 t) scM0_0
      (Memref.isWhole_whole _) (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2

/-- At the last tile of a query block the score block is the token sum of the buffer the same point leaves. -/
theorem score_at_last (c : Dev nD) (t : Fin cfg0.N) (h1 : t.val % 32 = 31) :
    (outsAt0 m c t.val t.isLt).1 = k0_pay3 (outsAt0 m c t.val t.isLt).2 := by
  have h0 : ¬t.val % 32 = 0 := by omega
  rw [outsAt0_C m c t h0 h1]
  dsimp only
  exact (score_last c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2).trans
    (congrArg k0_pay3 (carried_last c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2).symm)

end AnyValues

variable (m : (ℓ : Loc nD τ sig) → Buf (Elt Ideal) ℓ)

/-- The query array and the document array as the run finds them. -/
abbrev queries (c : Dev nD) : Cert.MaxSim.Queries := m ((c : Thread nD τ).loc main_arg0)
abbrev docs (c : Dev nD) : Cert.MaxSim.Docs := m ((c : Thread nD τ).loc main_arg1)

/-- THE RUNNING MAXIMUM after point t, at (b, n, c): the best similarity of token n of query 32 (t / 32) + b against
    document c within tiles 0 … t % 32. -/
theorem carried_eq (c : Dev nD) : ∀ (t : ℕ) (h : t < cfg0.N) (b : Fin 32) (n : Fin 32) (cc : Fin 64) (B : Fin 64),
    B.val = 32 * (t / 32) + b.val →
    (outsAt0 m c t h).2 (ix3 b n cc) = Cert.MaxSim.bestUpTo (queries m c) (docs m c) B n cc (t % 32)
  | 0, h, b, n, cc, B, hB => by
    refine (congrFun (carried_at_first m c ⟨0, h⟩ rfl) (ix3 b n cc)).trans ?_
    refine (running_max_apply (iblk m c 0 ⟨0, h⟩) (iblk m c 1 ⟨0, h⟩) (k0_pay1 (F := Ideal)) b n cc).trans ?_
    refine (congrArg₂ max (reset_apply (ix3 b n cc)) (tile_value m c ⟨0, h⟩ b n cc B hB _ _ rfl rfl)).trans ?_
    exact (Cert.MaxSim.bestUpTo_zero _ _ B n cc).symm
  | t + 1, h, b, n, cc, B, hB => by
    by_cases h0 : (t + 1) % 32 = 0
    · refine (congrFun (carried_at_first m c ⟨t + 1, h⟩ h0) (ix3 b n cc)).trans ?_
      refine (running_max_apply (iblk m c 0 ⟨t + 1, h⟩) (iblk m c 1 ⟨t + 1, h⟩) (k0_pay1 (F := Ideal)) b n cc).trans ?_
      refine (congrArg₂ max (reset_apply (ix3 b n cc)) (tile_value m c ⟨t + 1, h⟩ b n cc B hB _ _ rfl rfl)).trans ?_
      show max ⊥ (Cert.MaxSim.tileBest (queries m c) (docs m c) B n cc ((t + 1) % 32)) = _
      rw [h0]
      exact (Cert.MaxSim.bestUpTo_zero _ _ B n cc).symm
    · have ih := carried_eq c t (Nat.lt_of_succ_lt h) b n cc B (by rw [hB]; omega)
      refine (congrFun (carried_at_next m c ⟨t + 1, h⟩ h0) (ix3 b n cc)).trans ?_
      refine (running_max_apply (iblk m c 0 ⟨t + 1, h⟩) (iblk m c 1 ⟨t + 1, h⟩)
        (outsAt0 m c t (Nat.lt_of_succ_lt h)).2 b n cc).trans ?_
      refine (congrArg₂ max ih (tile_value m c ⟨t + 1, h⟩ b n cc B hB _ _ rfl rfl)).trans ?_
      show max _ (Cert.MaxSim.tileBest (queries m c) (docs m c) B n cc ((t + 1) % 32)) = _
      rw [show (t + 1) % 32 = t % 32 + 1 by omega]
      exact (Cert.MaxSim.bestUpTo_succ _ _ B n cc (t % 32)).symm

/-- THE SCORE BLOCK the last tile of a query block writes, at (b, c), is the score of query 32 (t / 32) + b and
    document c. -/
theorem score_block_eq (c : Dev nD) (t : Fin cfg0.N) (h31 : t.val % 32 = 31) (b : Fin 32) (cc : Fin 64) (B : Fin 64)
    (hB : B.val = 32 * (t.val / 32) + b.val) :
    (outsAt0 m c t.val t.isLt).1 (ix2 b cc) = Cert.MaxSim.score (queries m c) (docs m c) (ix2 B cc) := by
  refine (congrFun (score_at_last m c t h31) (ix2 b cc)).trans ?_
  refine (token_sum_apply (outsAt0 m c t.val t.isLt).2 b cc).trans ?_
  show _ = ∑ n : Fin 32, Cert.MaxSim.best (queries m c) (docs m c) B n cc
  refine Finset.sum_congr rfl fun n _ => ?_
  refine (carried_eq m c t.val t.isLt b n cc B hB).trans ?_
  rw [h31]
  exact Cert.MaxSim.bestUpTo_last _ _ B n cc

end Cert.KernelIdeal.Step

end
-- ==== Proof.KernelValue.lean ====
/-
  The score array after the kernel's run.

  The score window is written back only after the last tile of each query block (points 31 and 63); what is
  written is that block of the score (the running maximum summed over the query's tokens). The two blocks —
  queries 0 … 31 and 32 … 63, every document — cover the 64 × 64 array: query b lies in the block written at
  point 32 (b / 32) + 31. So the array ends holding the score.
-/
import proofs.«126869_j12077448036546_2_alg».proof.Proof.Gen.KernelIdeal.Value
import proofs.«126869_j12077448036546_2_alg».proof.Proof.Carried

noncomputable section

open Idealize.ShloMosaic Idealize.ShloMosaic.TcCoe Idealize.SL.Sem Idealize.ShloMosaic.ValueIdx
open Idealize.ShloMosaic.Pipeline (Dat)

namespace Cert.KernelIdeal.RunValue

open Cert.KernelIdeal Cert.KernelIdeal.Gen Cert.KernelIdeal.Step

variable (m : (ℓ : Loc nD τ sig) → Buf (Elt Ideal) ℓ) (ρ : Dev nD → PrngReg)

/-- What a write-back of the score window writes is its block of the score. -/
theorem flushed_eq (c : Dev nD) (t : Fin cfg0.N) (hf : (cfg0.win 2).flush t = true) :
    (dats m 0 c).flushed 2 t
      = ((cfg0.win 2).blk t).view.read (Elt Ideal) (Cert.MaxSim.score (queries m c) (docs m c)) := by
  have h31 : t.val % 32 = 31 := (flush0_2 t).mp hf
  obtain ⟨e0, e1⟩ := score_idx t
  have ht : t.val < 64 := lt_of_lt_of_eq t.isLt N_0
  rw [Cert.KernelIdeal.Value.flushed2]
  funext y
  have hy0 : (y 0).val < 32 := (y 0).isLt
  have hy1 : (y 1).val < 64 := (y 1).isLt
  show (outsAt0 m c t.val t.isLt).1 y = Cert.MaxSim.score (queries m c) (docs m c) (((cfg0.win 2).blk t).view.emb y)
  have hy : y = ix2 (⟨(y 0).val, hy0⟩ : Fin 32) (⟨(y 1).val, hy1⟩ : Fin 64) := funext fun a => by
    match a with | ⟨0, _⟩ => rfl | ⟨1, _⟩ => rfl
  have he : ((cfg0.win 2).blk t).view.emb y
      = ix2 (⟨32 * (t.val / 32) + (y 0).val, by omega⟩ : Fin 64) (⟨(y 1).val, hy1⟩ : Fin 64) := by
    funext a
    apply Fin.ext
    match a with
    | ⟨0, _⟩ => show win0_2.index t (0 : Fin 2) * 32 + 1 * (y 0).val = 32 * (t.val / 32) + (y 0).val; rw [e0]; omega
    | ⟨1, _⟩ => show win0_2.index t (1 : Fin 2) * 64 + 1 * (y 1).val = (y 1).val; rw [e1]; omega
  rw [he]
  refine (congrArg (outsAt0 m c t.val t.isLt).1 hy).trans ?_
  exact score_block_eq m c t h31 _ _ _ rfl

/-- An index of the score array is in point t's block iff each coordinate is in the block's range on its axis. -/
theorem mem_blk (t : Fin cfg0.N) (i : S64x64.Idx) :
    i ∈ ((cfg0.win 2).blk t).view.set ↔ ∀ a : Fin 2, win0_2.index t a * S32x64.size a ≤ (i a).val
      ∧ (i a).val < win0_2.index t a * S32x64.size a + S32x64.size a := by
  show i ∈ ((View.whole main_v0).slice (win0_2.rect t)).set ↔ _
  rw [View.set_slice_whole, Rect.mem_set_unit]
  exact Iff.rfl

/-- THE SCORE ARRAY after the run is the score. -/
theorem final (c : Dev nD) : (dats m 0 c).arrAt 2 cfg0.N = Cert.MaxSim.score (queries m c) (docs m c) :=
  (dats m 0 c).arrAt_eq_of_cover 2 _ (flushed_eq m c) fun i => by
    have hi0 : (i 0).val < 64 := (i 0).isLt
    have hi1 : (i 1).val < 64 := (i 1).isLt
    have hN : cfg0.N = 64 := N_0
    have hlt : 32 * ((i 0).val / 32) + 31 < cfg0.N := by rw [hN]; omega
    obtain ⟨e0, e1⟩ := score_idx ⟨32 * ((i 0).val / 32) + 31, hlt⟩
    refine ⟨⟨32 * ((i 0).val / 32) + 31, hlt⟩, (flush0_2 _).mpr (by show (32 * ((i 0).val / 32) + 31) % 32 = 31; omega), ?_⟩
    rw [mem_blk]
    intro a
    match a with
    | ⟨0, _⟩ =>
      show win0_2.index ⟨32 * ((i 0).val / 32) + 31, hlt⟩ (0 : Fin 2) * 32 ≤ (i 0).val
        ∧ (i 0).val < win0_2.index ⟨32 * ((i 0).val / 32) + 31, hlt⟩ (0 : Fin 2) * 32 + 32
      rw [e0]
      show (32 * ((i 0).val / 32) + 31) / 32 * 32 ≤ (i 0).val ∧ (i 0).val < (32 * ((i 0).val / 32) + 31) / 32 * 32 + 32
      omega
    | ⟨1, _⟩ =>
      show win0_2.index ⟨32 * ((i 0).val / 32) + 31, hlt⟩ (1 : Fin 2) * 64 ≤ (i 1).val
        ∧ (i 1).val < win0_2.index ⟨32 * ((i 0).val / 32) + 31, hlt⟩ (1 : Fin 2) * 64 + 64
      rw [e1]
      omega

/-- The kernel's run, read: the score array at the score of the argument arrays, the arguments unchanged. -/
theorem run : θ_run defs (onTc (τ := τ) (main (F := Ideal))) ⟨m, fun _ => 0, ρ⟩ fun r => ∀ c : Dev nD,
      r.2.mem ((c : Thread nD τ).loc main_v0) = Cert.MaxSim.score (queries m c) (docs m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelIdeal.RunValue

end
-- ==== Proof.RefValue.lean ====
/-
  The reference computes the MaxSim score.

  Its five operations, read one at a time at an index: the contraction over the feature axis gives, at
  (c, s, b, n), the inner product of document token (c, s) and query token (b, n) — the similarity, the product
  of extended reals being commutative —; the transposition moves it to (b, c, n, s); the maximum over s from minus
  infinity is the supremum over the document's tokens; the sum over n from zero is the score.
-/
import proofs.«126869_j12077448036546_2_alg».proof.Proof.Gen.ReferenceIdeal.Read
import proofs.«126869_j12077448036546_2_alg».proof.Proof.Spec

noncomputable section

open scoped BigOperators
open Idealize.ShloMosaic Idealize.ShloMosaic.ValueIdx

namespace Cert.ReferenceIdeal.RefValue

open Cert.ReferenceIdeal Cert.ReferenceIdeal.Gen Cert.ReferenceIdeal.Read

/-- The pattern of f32's minus infinity denotes the bottom of the extended reals. -/
theorem neg_inf : Ideal.ofBits .f32 0xFF800000#32 = (⊥ : EReal) := by simp [Ideal.ofBits, Ideal.ieee]

/-- The transposed contraction at (b, c, n, s) is the similarity of query token (b, n) and document token (c, s). -/
theorem sim_apply (x0 : (⟨S64x32x128, .f32⟩ : BufTy).Contents (Elt Ideal)) (x1 : (⟨S64x1024x128, .f32⟩ : BufTy).Contents (Elt Ideal))
    (b : Fin 64) (c : Fin 64) (n : Fin 32) (s : Fin 1024) :
    val_main_v1 (F := Ideal) x0 x1 (ix4 b c n s) = Cert.MaxSim.sim x0 x1 b n c s := by
  rw [val_main_v1_apply, val_main_v0_apply]
  unfold Cert.MaxSim.sim
  refine Finset.sum_congr rfl fun d _ => ?_
  have el : lidx_main_v0 (idx_main_v1 (ix4 b c n s)) d = ix3 c s d := funext fun a => Fin.ext (by
    match a with | ⟨0, _⟩ => rfl | ⟨1, _⟩ => rfl | ⟨2, _⟩ => rfl)
  have er : ridx_main_v0 (idx_main_v1 (ix4 b c n s)) d = ix3 b n d := funext fun a => Fin.ext (by
    match a with | ⟨0, _⟩ => rfl | ⟨1, _⟩ => rfl | ⟨2, _⟩ => rfl)
  rw [el, er, mul_comm]

/-- The maximum over the document's tokens, from minus infinity, is the best similarity. -/
theorem best_apply (x0 : (⟨S64x32x128, .f32⟩ : BufTy).Contents (Elt Ideal)) (x1 : (⟨S64x1024x128, .f32⟩ : BufTy).Contents (Elt Ideal))
    (b : Fin 64) (c : Fin 64) (n : Fin 32) :
    val_main_v2 (F := Ideal) x0 x1 (ix3 b c n) = Cert.MaxSim.best x0 x1 b n c := by
  have R : S64x64x32x1024.Reduces [3] S64x64x32 :=
    ⟨reducesTo_S64x64x32x1024_S64x64x32_d3.1, by decide, reducesTo_S64x64x32x1024_S64x64x32_d3.2⟩
  unfold val_main_v2
  refine (Host.reduce_eq_fold_single (FloatOps.maximumf (F := Ideal) (φ := .f32)) (val_main_v1 (F := Ideal) x0 x1) (val_main_cst (F := Ideal))
    reducesTo_S64x64x32x1024_S64x64x32_d3 R h_S_ (ix3 b c n)).trans ?_
  have e : ∀ s : Fin 1024, R.lift (ix3 b c n) s = ix4 b c n s := fun s =>
    funext fun a => Fin.ext (by match a with | ⟨0, _⟩ => rfl | ⟨1, _⟩ => rfl | ⟨2, _⟩ => rfl | ⟨3, _⟩ => rfl)
  have e' : (val_main_v1 (F := Ideal) x0 x1 ∘ R.lift (ix3 b c n)) = fun s : Fin 1024 => Cert.MaxSim.sim x0 x1 b n c s :=
    funext fun s => (congrArg (val_main_v1 (F := Ideal) x0 x1) (e s)).trans (sim_apply x0 x1 b c n s)
  rw [e']
  show (Finset.univ : Finset (Fin 1024)).fold max (Ideal.ofBits .f32 0xFF800000#32) (fun s => Cert.MaxSim.sim x0 x1 b n c s) = _
  rw [neg_inf]
  rfl

/-- THE REFERENCE'S RESULT is the score. -/
theorem reference_eq (x0 : (⟨S64x32x128, .f32⟩ : BufTy).Contents (Elt Ideal)) (x1 : (⟨S64x1024x128, .f32⟩ : BufTy).Contents (Elt Ideal)) :
    val_main_v3 (F := Ideal) x0 x1 = Cert.MaxSim.score x0 x1 := by
  funext i
  rw [val_main_v3_apply, val_main_cst_0_apply]
  show Ideal.ofBits .f32 0x00000000#32 + _ = _
  rw [Ideal.ofBits_zero_f32, zero_add]
  unfold Cert.MaxSim.score
  refine Finset.sum_congr rfl fun n _ => ?_
  have e : idx_main_v3 i n = ix3 (i 0) (i 1) n := funext fun a => Fin.ext (by
    match a with | ⟨0, _⟩ => rfl | ⟨1, _⟩ => rfl | ⟨2, _⟩ => rfl)
  exact (congrArg (val_main_v2 (F := Ideal) x0 x1) e).trans (best_apply x0 x1 (i 0) (i 1) n)

end Cert.ReferenceIdeal.RefValue

end
-- ==== Proof.lean ====
/-
  ColBERT MaxSim: scores[b, c] = Σ_n max_s Σ_d qs[b, n, d] · ps[c, s, d], for 64 queries of 32 tokens and 64
  documents of 1024 tokens over 128 features.

  The kernel computes it tile by tile: for each block of 32 queries it walks the document tokens in 32 tiles of 32,
  forms every similarity of the block's query tokens with the tile's document tokens by one matrix product, keeps a
  running maximum over the tiles (from minus infinity), and after the last tile sums the running maximum over the
  query's tokens. The reference forms all similarities by one contraction, takes the maximum over the document's
  tokens (from minus infinity) and sums over the query's tokens (from zero).

  On the extended reals both are the same function of the two arrays (`Cert.MaxSim.score`): a change of float format
  is the identity; a similarity is the same sum of products on both sides up to the commutativity of the product;
  the maximum over 1024 tokens is the maximum over the 32 tiles of each tile's maximum, both being the least upper
  bound of the same numbers; minus infinity is neutral for the maximum and zero for the sum. None of these laws
  needs the inputs to be finite, so the precondition is never opened.

  The three frames are the generated frame runs; the kernel's idealization rewrote nothing, so there is nothing to
  preserve beyond the text itself.
-/
import proofs.«126869_j12077448036546_2_alg».proof.Defs
import proofs.«126869_j12077448036546_2_alg».proof.Proof.Gen.Kernel
import proofs.«126869_j12077448036546_2_alg».proof.Proof.Gen.Kernel.Skeleton
import proofs.«126869_j12077448036546_2_alg».proof.Proof.Gen.Kernel.Launch
import proofs.«126869_j12077448036546_2_alg».proof.Proof.Gen.Kernel.Points
import proofs.«126869_j12077448036546_2_alg».proof.Proof.Gen.Kernel.Frame
import proofs.«126869_j12077448036546_2_alg».proof.Proof.Gen.KernelIdeal
import proofs.«126869_j12077448036546_2_alg».proof.Proof.Gen.KernelIdeal.Skeleton
import proofs.«126869_j12077448036546_2_alg».proof.Proof.Gen.KernelIdeal.Launch
import proofs.«126869_j12077448036546_2_alg».proof.Proof.Gen.KernelIdeal.Points
import proofs.«126869_j12077448036546_2_alg».proof.Proof.Gen.KernelIdeal.Frame
import proofs.«126869_j12077448036546_2_alg».proof.Proof.Gen.ReferenceIdeal
import proofs.«126869_j12077448036546_2_alg».proof.Proof.Gen.Pre_finite_inputs
import proofs.«126869_j12077448036546_2_alg».proof.Proof.Gen.KernelIdeal.Value
import proofs.«126869_j12077448036546_2_alg».proof.Proof.Gen.ReferenceIdeal.Run
import proofs.«126869_j12077448036546_2_alg».proof.Proof.Gen.ReferenceIdeal.Read
import proofs.«126869_j12077448036546_2_alg».proof.Proof.KernelValue
import proofs.«126869_j12077448036546_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the score of the (agreeing) argument arrays in their result. -/
theorem algebraic : Cert.algebraic_KernelIdeal_ReferenceIdeal := by
  intro m ρ m' ρ' _ hagree
  refine ⟨fun c => Cert.MaxSim.score (Cert.KernelIdeal.Step.queries m c) (Cert.KernelIdeal.Step.docs m c),
    Cert.KernelIdeal.RunValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v3_eq, Cert.ReferenceIdeal.RefValue.reference_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
